-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S50000x512 .f32) (main_arg1 : IVec S2x400000 32) (main_arg2 : FVec F S512x512 .f32) (main_arg3 : FVec F S512 .f32) (main_arg4 : FVec F S512x512 .f32) (main_arg5 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_v13 main_v16
-- ==== Kernel.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S1x400000 : Shape := ⟨2, ![1, 400000]⟩
abbrev S400000 : Shape := ⟨1, ![400000]⟩
abbrev S_ : Shape := ⟨0, ![]⟩
abbrev S50000 : Shape := ⟨1, ![50000]⟩
abbrev S400000x1 : Shape := ⟨2, ![400000, 1]⟩
abbrev S2000x512 : Shape := ⟨2, ![2000, 512]⟩
abbrev S400000x512 : Shape := ⟨2, ![400000, 512]⟩
abbrev S50000x1 : Shape := ⟨2, ![50000, 1]⟩
abbrev S1x512 : Shape := ⟨2, ![1, 512]⟩

abbrev nBuf : Space → Nat
  | .hbm => 98
  | .vmem => 20
  | .smem => 0
  | _ => 0

abbrev bufTy : (tb : Table) → Fin (tcTables nBuf tb) → BufTy
  | .hbm, ⟨0, _⟩ => ⟨S50000x512, .f32⟩
  | .hbm, ⟨1, _⟩ => ⟨S2x400000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1x400000, .i32⟩
  | .hbm, ⟨7, _⟩ => ⟨S400000, .i32⟩
  | .hbm, ⟨8, _⟩ => ⟨S1x400000, .i32⟩
  | .hbm, ⟨9, _⟩ => ⟨S400000, .i32⟩
  | .hbm, ⟨10, _⟩ => ⟨S_, .f32⟩
  | .hbm, ⟨11, _⟩ => ⟨S400000, .f32⟩
  | .hbm, ⟨12, _⟩ => ⟨S_, .f32⟩
  | .hbm, ⟨13, _⟩ => ⟨S50000, .f32⟩
  | .hbm, ⟨14, _⟩ => ⟨S400000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S400000, .i32⟩
  | .hbm, ⟨29, _⟩ => ⟨S400000, .i1⟩
  | .hbm, ⟨30, _⟩ => ⟨S_, .i32⟩
  | .hbm, ⟨31, _⟩ => ⟨S400000, .i32⟩
  | .hbm, ⟨32, _⟩ => ⟨S400000, .i32⟩
  | .hbm, ⟨33, _⟩ => ⟨S400000, .i32⟩
  | .hbm, ⟨34, _⟩ => ⟨S400000x1, .i32⟩
  | .hbm, ⟨35, _⟩ => ⟨S400000, .f32⟩
  | .hbm, ⟨36, _⟩ => ⟨S_, .i32⟩
  | .hbm, ⟨37, _⟩ => ⟨S400000, .i32⟩
  | .hbm, ⟨38, _⟩ => ⟨S400000, .i1⟩
  | .hbm, ⟨39, _⟩ => ⟨S_, .i32⟩
  | .hbm, ⟨40, _⟩ => ⟨S400000, .i32⟩
  | .hbm, ⟨41, _⟩ => ⟨S400000, .i32⟩
  | .hbm, ⟨42, _⟩ => ⟨S400000, .i32⟩
  | .hbm, ⟨43, _⟩ => ⟨S400000x1, .i32⟩
  | .hbm, ⟨44, _⟩ => ⟨S400000, .f32⟩
  | .hbm, ⟨45, _⟩ => ⟨S400000, .f32⟩
  | .hbm, ⟨46, _⟩ => ⟨S_, .f32⟩
  | .hbm, ⟨47, _⟩ => ⟨S50000, .f32⟩
  | .hbm, ⟨48, _⟩ => ⟨S50000, .f32⟩
  | .hbm, ⟨49, _⟩ => ⟨S50000, .f32⟩
  | .hbm, ⟨50, _⟩ => ⟨S512x512, .bf16⟩
  | .hbm, ⟨51, _⟩ => ⟨S50000x512, .f32⟩
  | .hbm, ⟨52, _⟩ => ⟨S_, .i32⟩
  | .hbm, ⟨53, _⟩ => ⟨S400000, .i32⟩
  | .hbm, ⟨54, _⟩ => ⟨S400000, .i1⟩
  | .hbm, ⟨55, _⟩ => ⟨S_, .i32⟩
  | .hbm, ⟨56, _⟩ => ⟨S400000, .i32⟩
  | .hbm, ⟨57, _⟩ => ⟨S400000, .i32⟩
  | .hbm, ⟨58, _⟩ => ⟨S400000, .i32⟩
  | .hbm, ⟨59, _⟩ => ⟨S400000x1, .i32⟩
  | .hbm, ⟨60, _⟩ => ⟨S400000x512, .f32⟩
  | .hbm, ⟨61, _⟩ => ⟨S400000x1, .f32⟩
  | .hbm, ⟨62, _⟩ => ⟨S400000x512, .f32⟩
  | .hbm, ⟨63, _⟩ => ⟨S400000x512, .f32⟩
  | .hbm, ⟨64, _⟩ => ⟨S_, .f32⟩
  | .hbm, ⟨65, _⟩ => ⟨S50000x512, .f32⟩
  | .hbm, ⟨66, _⟩ => ⟨S400000x1, .i32⟩
  | .hbm, ⟨67, _⟩ => ⟨S50000x512, .f32⟩
  | .hbm, ⟨68, _⟩ => ⟨S50000x1, .f32⟩
  | .hbm, ⟨69, _⟩ => ⟨S50000x512, .f32⟩
  | .hbm, ⟨70, _⟩ => ⟨S50000x512, .f32⟩
  | .hbm, ⟨71, _⟩ => ⟨S50000x512, .f32⟩
  | .hbm, ⟨72, _⟩ => ⟨S1x512, .f32⟩
  | .hbm, ⟨73, _⟩ => ⟨S50000x512, .f32⟩
  | .hbm, ⟨74, _⟩ => ⟨S512x512, .bf16⟩
  | .hbm, ⟨75, _⟩ => ⟨S50000x512, .f32⟩
  | .hbm, ⟨76, _⟩ => ⟨S_, .i32⟩
  | .hbm, ⟨77, _⟩ => ⟨S400000, .i32⟩
  | .hbm, ⟨78, _⟩ => ⟨S400000, .i1⟩
  | .hbm, ⟨79, _⟩ => ⟨S_, .i32⟩
  | .hbm, ⟨80, _⟩ => ⟨S400000, .i32⟩
  | .hbm, ⟨81, _⟩ => ⟨S400000, .i32⟩
  | .hbm, ⟨82, _⟩ => ⟨S400000, .i32⟩
  | .hbm, ⟨83, _⟩ => ⟨S400000x1, .i32⟩
  | .hbm, ⟨84, _⟩ => ⟨S400000x512, .f32⟩
  | .hbm, ⟨85, _⟩ => ⟨S400000x1, .f32⟩
  | .hbm, ⟨86, _⟩ => ⟨S400000x512, .f32⟩
  | .hbm, ⟨87, _⟩ => ⟨S400000x512, .f32⟩
  | .hbm, ⟨88, _⟩ => ⟨S_, .f32⟩
  | .hbm, ⟨89, _⟩ => ⟨S50000x512, .f32⟩
  | .hbm, ⟨90, _⟩ => ⟨S400000x1, .i32⟩
  | .hbm, ⟨91, _⟩ => ⟨S50000x512, .f32⟩
  | .hbm, ⟨92, _⟩ => ⟨S50000x1, .f32⟩
  | .hbm, ⟨93, _⟩ => ⟨S50000x512, .f32⟩
  | .hbm, ⟨94, _⟩ => ⟨S50000x512, .f32⟩
  | .hbm, ⟨95, _⟩ => ⟨S50000x512, .f32⟩
  | .hbm, ⟨96, _⟩ => ⟨S1x512, .f32⟩
  | .hbm, ⟨97, _⟩ => ⟨S50000x512, .f32⟩
  | .local _ .vmem, ⟨0, _⟩ => ⟨S2000x512, .f32⟩
  | .local _ .vmem, ⟨1, _⟩ => ⟨S2000x512, .f32⟩
  | .local _ .vmem, ⟨2, _⟩ => ⟨S512x512, .bf16⟩
  | .local _ .vmem, ⟨3, _⟩ => ⟨S2000x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S1x512, .f32⟩
  | .local _ .vmem, ⟨8, _⟩ => ⟨S2000x512, .f32⟩
  | .local _ .vmem, ⟨9, _⟩ => ⟨S2000x512, .f32⟩
  | .local _ .vmem, ⟨10, _⟩ => ⟨S2000x512, .f32⟩
  | .local _ .vmem, ⟨11, _⟩ => ⟨S2000x512, .f32⟩
  | .local _ .vmem, ⟨12, _⟩ => ⟨S512x512, .bf16⟩
  | .local _ .vmem, ⟨13, _⟩ => ⟨S2000x512, .f32⟩
  | .local _ .vmem, ⟨14, _⟩ => ⟨S2000x512, .f32⟩
  | .local _ .vmem, ⟨15, _⟩ => ⟨S2000x512, .f32⟩
  | .local _ .vmem, ⟨16, _⟩ => ⟨S2000x512, .f32⟩
  | .local _ .vmem, ⟨17, _⟩ => ⟨S1x512, .f32⟩
  | .local _ .vmem, ⟨18, _⟩ => ⟨S2000x512, .f32⟩
  | .local _ .vmem, ⟨19, _⟩ => ⟨S2000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_11 : Ref sig .tc := ⟨.hbm, 76, rfl⟩
abbrev main_v55 : Ref sig .tc := ⟨.hbm, 77, rfl⟩
abbrev main_v56 : Ref sig .tc := ⟨.hbm, 78, rfl⟩
abbrev main_c_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_13 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bcast_S400000x1_S400000x512_0_1 : S400000x1.BroadcastsInDim S400000x512 (![0, 1] : Fin 2 → Fin S400000x512.rank)
  bcast_S_S50000x512 : S_.BroadcastsInDim S50000x512 (![] : Fin 0 → Fin S50000x512.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  shapeCasts_S512_S1x512 : S512.ShapeCasts S1x512
  shapeCasts_S2000x512_S2000x512 : S2000x512.ShapeCasts S2000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  scatter_S50000_S400000x1_S400000_n_0_0_1_wf : ScatterDims.WF S50000 S400000x1 S400000 [] [0] [0] 1
  gather_S50000_S400000x1_S400000_n_0_n_n_0_1_1_wf : GatherDims.WF S50000 S400000x1 S400000 [] [0] [] [0] [] 1 ![1]
  dot_S2000x512_S512x512_S2000x512_1_0_0_1_n_n_wf : DotDims.WF S2000x512 S512x512 S2000x512 [1] [0] [0] [1] [] []
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S50000x512.size a
  hwx0_2 : ∀ i : grid0.Coords, EltTy.bits .f32 = 32 ∨ (Rect.block (s := S50000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x512.size a ≤ S50000x512.size a
  hwx1_2 : ∀ i : grid1.Coords, EltTy.bits .f32 = 32 ∨ (Rect.block (s := S50000x512) S2000x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S50000x512.size a
  hwx2_0 : ∀ i : grid2.Coords, EltTy.bits .f32 = 32 ∨ (Rect.block (s := S50000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .bf16 = 32 ∨ (Rect.block (s := S512x512) S512x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x512.size a ≤ S50000x512.size a
  hwx2_2 : ∀ i : grid2.Coords, EltTy.bits .f32 = 32 ∨ (Rect.block (s := S50000x512) S2000x512.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S50000x512.size a
  hwx3_0 : ∀ i : grid3.Coords, EltTy.bits .f32 = 32 ∨ (Rect.block (s := S50000x512) S2000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x512.size a ≤ S1x512.size a
  hwx3_1 : ∀ i : grid3.Coords, EltTy.bits .f32 = 32 ∨ (Rect.block (s := S1x512) S1x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x512.size a ≤ S50000x512.size a
  hwx3_2 : ∀ i : grid3.Coords, EltTy.bits .f32 = 32 ∨ (Rect.block (s := S50000x512) S2000x512.size (cc3_transform_2 i) (hinb3_2 i)).WholeWords (EltTy.packing .f32)

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S2000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S2000x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v71) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S1x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v73) S2000x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S1x400000 : Shape := ⟨2, ![1, 400000]⟩
abbrev S400000 : Shape := ⟨1, ![400000]⟩
abbrev S_ : Shape := ⟨0, ![]⟩
abbrev S50000 : Shape := ⟨1, ![50000]⟩
abbrev S400000x1 : Shape := ⟨2, ![400000, 1]⟩
abbrev S400000x512 : Shape := ⟨2, ![400000, 512]⟩
abbrev S50000x1 : Shape := ⟨2, ![50000, 1]⟩
abbrev S1x512 : Shape := ⟨2, ![1, 512]⟩

abbrev nBuf : Space → Nat
  | .hbm => 144
  | .vmem => 0
  | .smem => 0
  | _ => 0

abbrev hbmTy0_0 (i : Nat) : BufTy := match i % 128 with
  | 0 => ⟨S50000x512, .f32⟩
  | 1 => ⟨S2x400000, .i32⟩
  | 2 => ⟨S512x512, .f32⟩
  | 3 => ⟨S512, .f32⟩
  | 4 => ⟨S512x512, .f32⟩
  | 5 => ⟨S512, .f32⟩
  | 6 => ⟨S1x400000, .i32⟩
  | 7 => ⟨S400000, .i32⟩
  | 8 => ⟨S1x400000, .i32⟩
  | 9 => ⟨S400000, .i32⟩
  | 10 => ⟨S50000x512, .f32⟩
  | 11 => ⟨S_, .f32⟩
  | 12 => ⟨S400000, .f32⟩
  | 13 => ⟨S_, .f32⟩
  | 14 => ⟨S50000, .f32⟩
  | 15 => ⟨S400000x1, .i32⟩
  | 16 => ⟨S50000, .f32⟩
  | 17 => ⟨S_, .f32⟩
  | 18 => ⟨S50000, .f32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S400000, .i32⟩
  | 30 => ⟨S400000, .i1⟩
  | 31 => ⟨S_, .i32⟩
  | 32 => ⟨S400000, .i32⟩
  | 33 => ⟨S400000, .i32⟩
  | 34 => ⟨S400000, .i32⟩
  | 35 => ⟨S400000x1, .i32⟩
  | 36 => ⟨S400000, .f32⟩
  | 37 => ⟨S_, .i32⟩
  | 38 => ⟨S400000, .i32⟩
  | 39 => ⟨S400000, .i1⟩
  | 40 => ⟨S_, .i32⟩
  | 41 => ⟨S400000, .i32⟩
  | 42 => ⟨S400000, .i32⟩
  | 43 => ⟨S400000, .i32⟩
  | 44 => ⟨S400000x1, .i32⟩
  | 45 => ⟨S400000, .f32⟩
  | 46 => ⟨S400000, .f32⟩
  | 47 => ⟨S_, .i32⟩
  | 48 => ⟨S400000, .i32⟩
  | 49 => ⟨S400000, .i1⟩
  | 50 => ⟨S_, .i32⟩
  | 51 => ⟨S400000, .i32⟩
  | 52 => ⟨S400000, .i32⟩
  | 53 => ⟨S400000, .i32⟩
  | 54 => ⟨S400000x1, .i32⟩
  | 55 => ⟨S400000x512, .f32⟩
  | 56 => ⟨S400000x1, .f32⟩
  | 57 => ⟨S400000x512, .f32⟩
  | 58 => ⟨S400000x512, .f32⟩
  | 59 => ⟨S_, .f32⟩
  | 60 => ⟨S50000x512, .f32⟩
  | 61 => ⟨S400000x1, .i32⟩
  | 62 => ⟨S50000x512, .f32⟩
  | 63 => ⟨S_, .f32⟩
  | 64 => ⟨S50000, .f32⟩
  | 65 => ⟨S50000, .f32⟩
  | 66 => ⟨S50000, .f32⟩
  | 67 => ⟨S50000x1, .f32⟩
  | 68 => ⟨S50000x512, .f32⟩
  | 69 => ⟨S50000x512, .f32⟩
  | 70 => ⟨S50000x512, .f32⟩
  | 71 => ⟨S1x512, .f32⟩
  | 72 => ⟨S50000x512, .f32⟩
  | 73 => ⟨S50000x512, .f32⟩
  | 74 => ⟨S_, .f32⟩
  | 75 => ⟨S50000x512, .f32⟩
  | 76 => ⟨S50000x512, .f32⟩
  | 77 => ⟨S50000x512, .f32⟩
  | 78 => ⟨S_, .f32⟩
  | 79 => ⟨S400000, .f32⟩
  | 80 => ⟨S_, .f32⟩
  | 81 => ⟨S50000, .f32⟩
  | 82 => ⟨S400000x1, .i32⟩
  | 83 => ⟨S50000, .f32⟩
  | 84 => ⟨S_, .f32⟩
  | 85 => ⟨S50000, .f32⟩
  | 86 => ⟨S50000, .f32⟩
  | 87 => ⟨S_, .f32⟩
  | 88 => ⟨S50000, .f32⟩
  | 89 => ⟨S50000, .i1⟩
  | 90 => ⟨S50000, .f32⟩
  | 91 => ⟨S_, .f32⟩
  | 92 => ⟨S_, .f32⟩
  | 93 => ⟨S50000, .f32⟩
  | 94 => ⟨S50000, .f32⟩
  | 95 => ⟨S_, .i32⟩
  | 96 => ⟨S400000, .i32⟩
  | 97 => ⟨S400000, .i1⟩
  | 98 => ⟨S_, .i32⟩
  | 99 => ⟨S400000, .i32⟩
  | 100 => ⟨S400000, .i32⟩
  | 101 => ⟨S400000, .i32⟩
  | 102 => ⟨S400000x1, .i32⟩
  | 103 => ⟨S400000, .f32⟩
  | 104 => ⟨S_, .i32⟩
  | 105 => ⟨S400000, .i32⟩
  | 106 => ⟨S400000, .i1⟩
  | 107 => ⟨S_, .i32⟩
  | 108 => ⟨S400000, .i32⟩
  | 109 => ⟨S400000, .i32⟩
  | 110 => ⟨S400000, .i32⟩
  | 111 => ⟨S400000x1, .i32⟩
  | 112 => ⟨S400000, .f32⟩
  | 113 => ⟨S400000, .f32⟩
  | 114 => ⟨S_, .i32⟩
  | 115 => ⟨S400000, .i32⟩
  | 116 => ⟨S400000, .i1⟩
  | 117 => ⟨S_, .i32⟩
  | 118 => ⟨S400000, .i32⟩
  | 119 => ⟨S400000, .i32⟩
  | 120 => ⟨S400000, .i32⟩
  | 121 => ⟨S400000x1, .i32⟩
  | 122 => ⟨S400000x512, .f32⟩
  | 123 => ⟨S400000x1, .f32⟩
  | 124 => ⟨S400000x512, .f32⟩
  | 125 => ⟨S400000x512, .f32⟩
  | 126 => ⟨S_, .f32⟩
  | 127 => ⟨S50000x512, .f32⟩
  | _ => ⟨S50000x512, .f32⟩

abbrev hbmTy0_1 (i : Nat) : BufTy := match i % 128 with
  | 0 => ⟨S400000x1, .i32⟩
  | 1 => ⟨S50000x512, .f32⟩
  | 2 => ⟨S_, .f32⟩
  | 3 => ⟨S50000, .f32⟩
  | 4 => ⟨S50000, .f32⟩
  | 5 => ⟨S50000, .f32⟩
  | 6 => ⟨S50000x1, .f32⟩
  | 7 => ⟨S50000x512, .f32⟩
  | 8 => ⟨S50000x512, .f32⟩
  | 9 => ⟨S50000x512, .f32⟩
  | 10 => ⟨S1x512, .f32⟩
  | 11 => ⟨S50000x512, .f32⟩
  | 12 => ⟨S50000x512, .f32⟩
  | 13 => ⟨S_, .f32⟩
  | 14 => ⟨S50000x512, .f32⟩
  | 15 => ⟨S50000x512, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call1_cst : Ref sig .tc := ⟨.hbm, 74, rfl⟩
abbrev main_call1_v0 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_cst_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_15 : Ref sig .tc := ⟨.hbm, 91, rfl⟩
abbrev main_call2_v0 : Ref sig .tc := ⟨.hbm, 92, rfl⟩
abbrev main_call2_v1 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_c_17 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_18 : Ref sig .tc := ⟨.hbm, 104, rfl⟩
abbrev main_v72 : Ref sig .tc := ⟨.hbm, 105, rfl⟩
abbrev main_v73 : Ref sig .tc := ⟨.hbm, 106, rfl⟩
abbrev main_c_19 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_20 : Ref sig .tc := ⟨.hbm, 114, rfl⟩
abbrev main_v80 : Ref sig .tc := ⟨.hbm, 115, rfl⟩
abbrev main_v81 : Ref sig .tc := ⟨.hbm, 116, rfl⟩
abbrev main_c_21 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_22 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_23 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_call3_cst : Ref sig .tc := ⟨.hbm, 141, rfl⟩
abbrev main_call3_v0 : Ref sig .tc := ⟨.hbm, 142, rfl⟩
abbrev main_v103 : Ref sig .tc := ⟨.hbm, 143, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S400000x1_S400000x512_0_1 : S400000x1.BroadcastsInDim S400000x512 (![0, 1] : Fin 2 → Fin S400000x512.rank)
  bcast_S_S50000x512 : S_.BroadcastsInDim S50000x512 (![] : Fin 0 → Fin S50000x512.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  dot_S50000x512_S512x512_S50000x512_1_0_0_1_n_n_wf : DotDims.WF S50000x512 S512x512 S50000x512 [1] [0] [0] [1] [] []
  scatter_S50000_S400000x1_S400000_n_0_0_1_wf : ScatterDims.WF S50000 S400000x1 S400000 [] [0] [0] 1
  gather_S50000_S400000x1_S400000_n_0_n_n_0_1_1_wf : GatherDims.WF S50000 S400000x1 S400000 [] [0] [] [0] [] 1 ![1]
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1

variable [Facts₀]

def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf

class Facts : Prop extends Facts₀ where

variable [Facts]
-- ==== Proof.NamedRun.lean ====
/-
  The kernel program's run with its result named.

  Every weakly fair execution of the program terminates without a fault, leaves the six argument arrays as they were,
  and leaves in the result array what the last of the four grid sweeps wrote back: the contents at the last segment
  boundary. This is the program's frame run with one more buffer of the final state read back.
-/
import proofs.«108881_j33827162423530_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments unchanged. -/
theorem run_named : θ_run defs (onTc (τ := τ) (main (F := F))) ⟨m, fun _ => 0, ρ⟩ (fun r => ∀ c : Dev nD,
      r.2.mem ((c.tc : Thread nD τ).loc main_v73) = W10 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v73 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.Named

end
-- ==== Proof.Bodies.lean ====
/-
  The two kernel bodies, read entry by entry at the ideal values.

  The matrix-product body multiplies its block of 2000 rows (rounding to bf16 is the identity on extended reals) by the
  whole 512×512 weight matrix into a zero accumulator: entry (p, q) of what it stores is ∑ k, x(p, k) · w(k, q).
  The bias body adds the one bias row to every row of its block and takes the maximum with zero:
  entry (p, q) of what it stores is max (a(p, q) + b(0, q)) 0.
-/
import proofs.«108881_j33827162423530_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Body

open Cert.KernelIdeal Cert.KernelIdeal.Gen

/-- The left operand is read at the output's row … -/
theorem lhs_row (i : S2000x512.Idx) (r : (dot_S2000x512_S512x512_S2000x512_1_0_0_1_n_n).contr.Idx) :
    ((dot_S2000x512_S512x512_S2000x512_1_0_0_1_n_n).lhsIdx i r 0).val = (i 0).val := by
  unfold DotDims.lhsIdx
  rw [dif_neg (show ¬(0 : Fin S2000x512.rank) ∈ (dot_S2000x512_S512x512_S2000x512_1_0_0_1_n_n).lhsBatch by decide),
    dif_pos (show (0 : Fin S2000x512.rank) ∈ (dot_S2000x512_S512x512_S2000x512_1_0_0_1_n_n).lhsNonContracting by decide)]
  rfl
/-- … and the contracted coordinate; -/
theorem lhs_col (i : S2000x512.Idx) (r : (dot_S2000x512_S512x512_S2000x512_1_0_0_1_n_n).contr.Idx) :
    ((dot_S2000x512_S512x512_S2000x512_1_0_0_1_n_n).lhsIdx i r 1).val = (r ⟨0, by decide⟩).val :=
  (dot_S2000x512_S512x512_S2000x512_1_0_0_1_n_n).lhsIdx_val_of_single rfl i r
/-- the right operand at the contracted coordinate … -/
theorem rhs_row (i : S2000x512.Idx) (r : (dot_S2000x512_S512x512_S2000x512_1_0_0_1_n_n).contr.Idx) :
    ((dot_S2000x512_S512x512_S2000x512_1_0_0_1_n_n).rhsIdx i r 0).val = (r ⟨0, by decide⟩).val :=
  (dot_S2000x512_S512x512_S2000x512_1_0_0_1_n_n).rhsIdx_val_of_single rfl i r
/-- … and the output's column. -/
theorem rhs_col (i : S2000x512.Idx) (r : (dot_S2000x512_S512x512_S2000x512_1_0_0_1_n_n).contr.Idx) :
    ((dot_S2000x512_S512x512_S2000x512_1_0_0_1_n_n).rhsIdx i r 1).val = (i 1).val := by
  unfold DotDims.rhsIdx
  rw [dif_neg (show ¬(1 : Fin S512x512.rank) ∈ (dot_S2000x512_S512x512_S2000x512_1_0_0_1_n_n).rhsBatch by decide),
    dif_pos (show (1 : Fin S512x512.rank) ∈ (dot_S2000x512_S512x512_S2000x512_1_0_0_1_n_n).rhsNonContracting by decide)]
  rfl

/-- The block product into the zero accumulator, at row p and column q: the sum over the contracted coordinate. -/
theorem blockProduct_apply (x : FVec Ideal S2000x512 .bf16) (w : FVec Ideal S512x512 .bf16) (p : Fin 2000) (q : Fin 512) :
    matmul dot_S2000x512_S512x512_S2000x512_1_0_0_1_n_n none x w (constant (F := Ideal) S2000x512 .f32 0x00000000#32) (ix2 p q)
      = ∑ k : Fin 512, x (ix2 p k) * w (ix2 k q) := by
  show FloatOps.matmul _ none x w _ (ix2 p q) = _
  rw [Ideal.matmul_constant_zero_apply,
    ← Equiv.sum_comp (ValueIdx.contrEquiv1 dot_S2000x512_S512x512_S2000x512_1_0_0_1_n_n 512 rfl rfl).symm]
  refine Finset.sum_congr rfl fun k _ => ?_
  have hk := ValueIdx.contrEquiv1_symm_val dot_S2000x512_S512x512_S2000x512_1_0_0_1_n_n 512 rfl rfl k
  have el : (dot_S2000x512_S512x512_S2000x512_1_0_0_1_n_n).lhsIdx (ix2 p q)
      ((ValueIdx.contrEquiv1 dot_S2000x512_S512x512_S2000x512_1_0_0_1_n_n 512 rfl rfl).symm k) = ix2 p k :=
    funext fun a => Fin.ext (by
      match a with
      | ⟨0, _⟩ => exact lhs_row _ _
      | ⟨1, _⟩ => exact (lhs_col _ _).trans hk)
  have er : (dot_S2000x512_S512x512_S2000x512_1_0_0_1_n_n).rhsIdx (ix2 p q)
      ((ValueIdx.contrEquiv1 dot_S2000x512_S512x512_S2000x512_1_0_0_1_n_n 512 rfl rfl).symm k) = ix2 k q :=
    funext fun a => Fin.ext (by
      match a with
      | ⟨0, _⟩ => exact (rhs_row _ _).trans hk
      | ⟨1, _⟩ => exact rhs_col _ _)
  rw [el, er]

/-- The first product body at (p, q). -/
theorem pay0_apply (x : Vec Ideal S2000x512 .f32) (w : Vec Ideal S512x512 .bf16) (p : Fin 2000) (q : Fin 512) :
    k0_pay1 (F := Ideal) x w (ix2 p q) = ∑ k : Fin 512, x (ix2 p k) * w (ix2 k q) := by
  unfold k0_pay1
  simp only [shapeCast_self]
  exact blockProduct_apply x w p q

/-- The second product body at (p, q). -/
theorem pay2_apply (x : Vec Ideal S2000x512 .f32) (w : Vec Ideal S512x512 .bf16) (p : Fin 2000) (q : Fin 512) :
    k2_pay1 (F := Ideal) x w (ix2 p q) = ∑ k : Fin 512, x (ix2 p k) * w (ix2 k q) := by
  unfold k2_pay1
  simp only [shapeCast_self]
  exact blockProduct_apply x w p q

/-- The bias body of the first layer at (p, q). -/
theorem pay1_apply (a : Vec Ideal S2000x512 .f32) (b : Vec Ideal S1x512 .f32) (p : Fin 2000) (q : Fin 512) :
    k1_pay1 (F := Ideal) a b (ix2 p q) = max (a (ix2 p q) + b (ix2 (0 : Fin 1) q)) (Ideal.ofBits .f32 0x00000000#32) := by
  unfold k1_pay1
  simp only [shapeCast_self]
  show max (a (ix2 p q) + broadcastTo S2000x512 b broadcasts_S1x512_S2000x512 (ix2 p q)) _ = _
  rw [broadcastTo_1b_ab_apply]
  rfl

/-- The bias body of the second layer at (p, q). -/
theorem pay3_apply (a : Vec Ideal S2000x512 .f32) (b : Vec Ideal S1x512 .f32) (p : Fin 2000) (q : Fin 512) :
    k3_pay1 (F := Ideal) a b (ix2 p q) = max (a (ix2 p q) + b (ix2 (0 : Fin 1) q)) (Ideal.ofBits .f32 0x00000000#32) := by
  unfold k3_pay1
  simp only [shapeCast_self]
  show max (a (ix2 p q) + broadcastTo S2000x512 b broadcasts_S1x512_S2000x512 (ix2 p q)) _ = _
  rw [broadcastTo_1b_ab_apply]
  rfl

end Cert.KernelIdeal.Body

end
-- ==== Proof.SweepDefs.lean ====
/-
  The two whole-array functions the grid sweeps compute, entry by entry, at the ideal values.
-/
import proofs.«108881_j33827162423530_1_alg».proof.Proof.Gen.KernelIdeal
import Idealize.ShloMosaic.Lib.ValueIdx
import Idealize.ShloMosaic.PureOps.Ideal.Laws

noncomputable section

open Idealize.ShloMosaic Idealize.ShloMosaic.ValueIdx

namespace Cert.KernelIdeal.Sweep

open Cert.KernelIdeal

/-- The two zero offsets, however spelt. -/
theorem hz : (![0, 0] : Fin 2 → Nat) = fun _ => 0 := funext fun a => by fin_cases a <;> rfl

/-- The product of a [50000, 512] array and a [512, 512] array: entry (r, q) is ∑ k, x(r, k) · w(k, q). -/
def rowsTimes (x : S50000x512.Idx → EReal) (w : S512x512.Idx → EReal) : S50000x512.Idx → EReal :=
  fun i => ∑ k : Fin 512, x (ix2 (i 0) k) * w (ix2 k (i 1))

/-- A [50000, 512] array with the one row of a [1, 512] array added to every row, then the maximum with zero:
    entry (r, q) is max (a(r, q) + b(0, q)) 0. -/
def biasMax (a : S50000x512.Idx → EReal) (b : S1x512.Idx → EReal) : S50000x512.Idx → EReal :=
  fun i => max (a i + b (ix2 (0 : Fin 1) (i 1))) (Ideal.ofBits .f32 0x00000000#32)

end Cert.KernelIdeal.Sweep

end
-- ==== Proof.Sweep3.lean ====
/-
  The second layer's bias sweep, as one function of the arrays it finds.

  The sweep has 25 points; point t takes rows 2000·t … 2000·t + 1999 of the [50000, 512] input, adds the one row of the
  [1, 512] bias array to each of them, takes the maximum with zero, and writes the block back to the same rows of the
  output. The blocks tile the output, so after the sweep entry (r, q) of the output is max (a(r, q) + b(0, q)) 0.
-/
import proofs.«108881_j33827162423530_1_alg».proof.Proof.Gen.KernelIdeal.Frame
import proofs.«108881_j33827162423530_1_alg».proof.Proof.Bodies
import proofs.«108881_j33827162423530_1_alg».proof.Proof.SweepDefs
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Sweep

open Cert.KernelIdeal Cert.KernelIdeal.Gen

variable (V : (c : Dev nD) → (b : Ref sig .tc) → Buf (Elt Ideal) ((c : Thread nD τ).loc b))

/-- The block indices of the three windows at point t: the input and the output move down the rows with t, the bias row
    stays. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the biased, clamped array. -/
theorem flushed3 (c : Dev nD) (t : Fin cfg3.N) :
    (dat3 V c).flushed 2 t = ((cfg3.win 2).blk t).view.read (Elt Ideal) (biasMax (V c main_v71) (V c main_v72)) := by
  show (cfg3.win 2).cut (grid3.coords t) ((dat3 V c).after 2 t) = _
  rw [after3_2]
  unfold out3_2
  rw [View.canon_unit_zero hz]
  simp only [View.ld_unit_zero (S := S2000x512) hz, View.ld_unit_zero (S := S1x512) hz]
  obtain ⟨e0, e1, e2, e3, e4, e5⟩ := idx3 t
  funext j
  show k3_pay1 (F := Ideal) (iblk3 V c 0 t) (iblk3 V c 1 t) j = biasMax (V c main_v71) (V c main_v72) (((cfg3.win 2).blk t).view.emb j)
  have hj : (j : S2000x512.Idx) = ix2 (j 0) (j 1) := eq_ix2 j
  refine (congrArg (k3_pay1 (F := Ideal) (iblk3 V c 0 t) (iblk3 V c 1 t)) hj).trans ?_
  refine (Body.pay3_apply _ _ (j 0) (j 1)).trans ?_
  unfold biasMax
  have ha : iblk3 V c 0 t (ix2 (j 0) (j 1)) = V c main_v71 (((cfg3.win 2).blk t).view.emb j) := by
    show V c main_v71 (((cfg3.win 0).blk t).view.emb (ix2 (j 0) (j 1))) = _
    refine congrArg (V c main_v71) (funext fun a => Fin.ext ?_)
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 512 + 1 * (j 1).val = win3_2.index t (1 : Fin 2) * 512 + 1 * (j 1).val; omega
  have hb : iblk3 V c 1 t (ix2 (0 : Fin 1) (j 1)) = V c main_v72 (ix2 (0 : Fin 1) ((((cfg3.win 2).blk t).view.emb j) 1)) := by
    show V c main_v72 (((cfg3.win 1).blk t).view.emb (ix2 (0 : Fin 1) (j 1))) = _
    refine congrArg (V c main_v72) (funext fun a => Fin.ext ?_)
    match a with
    | ⟨0, _⟩ => show win3_1.index t (0 : Fin 2) * 1 + 1 * 0 = 0; omega
    | ⟨1, _⟩ => show win3_1.index t (1 : Fin 2) * 512 + 1 * (j 1).val = win3_2.index t (1 : Fin 2) * 512 + 1 * (j 1).val; omega
  rw [ha, hb]

/-- An index of the output is in point t's block iff each coordinate is in the block's range on its axis. -/
theorem mem_blk3 (t : Fin cfg3.N) (i : S50000x512.Idx) :
    i ∈ ((cfg3.win 2).blk t).view.set ↔ ∀ a : Fin 2, win3_2.index t a * S2000x512.size a ≤ (i a).val ∧ (i a).val < win3_2.index t a * S2000x512.size a + S2000x512.size a := by
  show i ∈ ((View.whole main_v73).slice (win3_2.rect t)).set ↔ _
  rw [View.set_slice_whole, Rect.mem_set_unit]
  exact Iff.rfl

/-- The point whose block holds row r is r / 2000. -/
theorem cover3 (i : S50000x512.Idx) : ∃ t : Fin cfg3.N, (cfg3.win 2).flush t = true ∧ i ∈ ((cfg3.win 2).blk t).view.set := by
  have hi0 : (i 0).val < 50000 := (i 0).isLt
  have hi1 : (i 1).val < 512 := (i 1).isLt
  have hN : cfg3.N = 25 := N_3
  let t : Fin cfg3.N := ⟨(i 0).val / 2000, by rw [hN]; omega⟩
  obtain ⟨e0, e1, e2, e3, e4, e5⟩ := idx3 t
  refine ⟨t, flush3_2 t, ?_⟩
  rw [mem_blk3]
  intro a
  have ht : t.val = (i 0).val / 2000 := rfl
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 512 ≤ (i 1).val ∧ (i 1).val < win3_2.index t (1 : Fin 2) * 512 + 512; omega

/-- After the sweep the output array is the biased, clamped input. -/
theorem sweep3 (c : Dev nD) : (dat3 V c).arrAt 2 cfg3.N = biasMax (V c main_v71) (V c main_v72) :=
  (dat3 V c).arrAt_eq_of_cover 2 (biasMax (V c main_v71) (V c main_v72)) (fun t _ => flushed3 V c t) cover3

end Cert.KernelIdeal.Sweep

end
-- ==== Proof.Sweep2.lean ====
/-
  The second layer's matrix-product sweep, as one function of the arrays it finds.

  The sweep has 25 points; point t multiplies rows 2000·t … 2000·t + 1999 of the [50000, 512] input by the whole
  [512, 512] weight matrix and writes the block back to the same rows of the output. The blocks tile the output,
  so after the sweep entry (r, q) of the output is ∑ k, x(r, k) · w(k, q).
-/
import proofs.«108881_j33827162423530_1_alg».proof.Proof.Gen.KernelIdeal.Frame
import proofs.«108881_j33827162423530_1_alg».proof.Proof.Bodies
import proofs.«108881_j33827162423530_1_alg».proof.Proof.SweepDefs
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Sweep

open Cert.KernelIdeal Cert.KernelIdeal.Gen

variable (V : (c : Dev nD) → (b : Ref sig .tc) → Buf (Elt Ideal) ((c : Thread nD τ).loc b))

/-- The block indices of the three windows at point t: the input and the output move down the rows with t, the weight
    matrix stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the arrays the sweep finds. -/
theorem flushed2 (c : Dev nD) (t : Fin cfg2.N) :
    (dat2 V c).flushed 2 t = ((cfg2.win 2).blk t).view.read (Elt Ideal) (rowsTimes (V c main_v52) (V c main_v53)) := by
  show (cfg2.win 2).cut (grid2.coords t) ((dat2 V c).after 2 t) = _
  rw [after2_2]
  unfold out2_2
  rw [View.canon_unit_zero hz]
  simp only [View.ld_unit_zero (S := S2000x512) hz, View.ld_unit_zero (S := S512x512) hz]
  obtain ⟨e0, e1, e2, e3, e4, e5⟩ := idx2 t
  funext j
  show k2_pay1 (F := Ideal) (iblk2 V c 0 t) (iblk2 V c 1 t) j = rowsTimes (V c main_v52) (V c main_v53) (((cfg2.win 2).blk t).view.emb j)
  have hj : (j : S2000x512.Idx) = ix2 (j 0) (j 1) := eq_ix2 j
  refine (congrArg (k2_pay1 (F := Ideal) (iblk2 V c 0 t) (iblk2 V c 1 t)) hj).trans ?_
  refine (Body.pay2_apply _ _ (j 0) (j 1)).trans ?_
  unfold rowsTimes
  refine Finset.sum_congr rfl fun k _ => ?_
  have hx : iblk2 V c 0 t (ix2 (j 0) k) = V c main_v52 (ix2 ((((cfg2.win 2).blk t).view.emb j) 0) k) := by
    show V c main_v52 (((cfg2.win 0).blk t).view.emb (ix2 (j 0) k)) = _
    refine congrArg (V c main_v52) (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 512 + 1 * k.val = k.val; omega
  have hw : iblk2 V c 1 t (ix2 k (j 1)) = V c main_v53 (ix2 k ((((cfg2.win 2).blk t).view.emb j) 1)) := by
    show V c main_v53 (((cfg2.win 1).blk t).view.emb (ix2 k (j 1))) = _
    refine congrArg (V c main_v53) (funext fun a => Fin.ext ?_)
    match a with
    | ⟨0, _⟩ => show win2_1.index t (0 : Fin 2) * 512 + 1 * k.val = k.val; omega
    | ⟨1, _⟩ => show win2_1.index t (1 : Fin 2) * 512 + 1 * (j 1).val = win2_2.index t (1 : Fin 2) * 512 + 1 * (j 1).val; omega
  rw [hx, hw]

/-- An index of the output is in point t's block iff each coordinate is in the block's range on its axis. -/
theorem mem_blk2 (t : Fin cfg2.N) (i : S50000x512.Idx) :
    i ∈ ((cfg2.win 2).blk t).view.set ↔ ∀ a : Fin 2, win2_2.index t a * S2000x512.size a ≤ (i a).val ∧ (i a).val < win2_2.index t a * S2000x512.size a + S2000x512.size a := by
  show i ∈ ((View.whole main_v54).slice (win2_2.rect t)).set ↔ _
  rw [View.set_slice_whole, Rect.mem_set_unit]
  exact Iff.rfl

/-- The point whose block holds row r is r / 2000. -/
theorem cover2 (i : S50000x512.Idx) : ∃ t : Fin cfg2.N, (cfg2.win 2).flush t = true ∧ i ∈ ((cfg2.win 2).blk t).view.set := by
  have hi0 : (i 0).val < 50000 := (i 0).isLt
  have hi1 : (i 1).val < 512 := (i 1).isLt
  have hN : cfg2.N = 25 := N_2
  let t : Fin cfg2.N := ⟨(i 0).val / 2000, by rw [hN]; omega⟩
  obtain ⟨e0, e1, e2, e3, e4, e5⟩ := idx2 t
  refine ⟨t, flush2_2 t, ?_⟩
  rw [mem_blk2]
  intro a
  have ht : t.val = (i 0).val / 2000 := rfl
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 512 ≤ (i 1).val ∧ (i 1).val < win2_2.index t (1 : Fin 2) * 512 + 512; omega

/-- After the sweep the output array is the product of the arrays the sweep found. -/
theorem sweep2 (c : Dev nD) : (dat2 V c).arrAt 2 cfg2.N = rowsTimes (V c main_v52) (V c main_v53) :=
  (dat2 V c).arrAt_eq_of_cover 2 (rowsTimes (V c main_v52) (V c main_v53)) (fun t _ => flushed2 V c t) cover2

end Cert.KernelIdeal.Sweep

end
-- ==== Proof.Sweep1.lean ====
/-
  The first layer's bias sweep, as one function of the arrays it finds.

  The sweep has 25 points; point t takes rows 2000·t … 2000·t + 1999 of the [50000, 512] input, adds the one row of the
  [1, 512] bias array to each of them, takes the maximum with zero, and writes the block back to the same rows of the
  output. The blocks tile the output, so after the sweep entry (r, q) of the output is max (a(r, q) + b(0, q)) 0.
-/
import proofs.«108881_j33827162423530_1_alg».proof.Proof.Gen.KernelIdeal.Frame
import proofs.«108881_j33827162423530_1_alg».proof.Proof.Bodies
import proofs.«108881_j33827162423530_1_alg».proof.Proof.SweepDefs
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Sweep

open Cert.KernelIdeal Cert.KernelIdeal.Gen

variable (V : (c : Dev nD) → (b : Ref sig .tc) → Buf (Elt Ideal) ((c : Thread nD τ).loc b))

/-- The block indices of the three windows at point t: the input and the output move down the rows with t, the bias row
    stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the biased, clamped array. -/
theorem flushed1 (c : Dev nD) (t : Fin cfg1.N) :
    (dat1 V c).flushed 2 t = ((cfg1.win 2).blk t).view.read (Elt Ideal) (biasMax (V c main_v50) (V c main_v51)) := by
  show (cfg1.win 2).cut (grid1.coords t) ((dat1 V c).after 2 t) = _
  rw [after1_2]
  unfold out1_2
  rw [View.canon_unit_zero hz]
  simp only [View.ld_unit_zero (S := S2000x512) hz, View.ld_unit_zero (S := S1x512) hz]
  obtain ⟨e0, e1, e2, e3, e4, e5⟩ := idx1 t
  funext j
  show k1_pay1 (F := Ideal) (iblk1 V c 0 t) (iblk1 V c 1 t) j = biasMax (V c main_v50) (V c main_v51) (((cfg1.win 2).blk t).view.emb j)
  have hj : (j : S2000x512.Idx) = ix2 (j 0) (j 1) := eq_ix2 j
  refine (congrArg (k1_pay1 (F := Ideal) (iblk1 V c 0 t) (iblk1 V c 1 t)) hj).trans ?_
  refine (Body.pay1_apply _ _ (j 0) (j 1)).trans ?_
  unfold biasMax
  have ha : iblk1 V c 0 t (ix2 (j 0) (j 1)) = V c main_v50 (((cfg1.win 2).blk t).view.emb j) := by
    show V c main_v50 (((cfg1.win 0).blk t).view.emb (ix2 (j 0) (j 1))) = _
    refine congrArg (V c main_v50) (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 512 + 1 * (j 1).val = win1_2.index t (1 : Fin 2) * 512 + 1 * (j 1).val; omega
  have hb : iblk1 V c 1 t (ix2 (0 : Fin 1) (j 1)) = V c main_v51 (ix2 (0 : Fin 1) ((((cfg1.win 2).blk t).view.emb j) 1)) := by
    show V c main_v51 (((cfg1.win 1).blk t).view.emb (ix2 (0 : Fin 1) (j 1))) = _
    refine congrArg (V c main_v51) (funext fun a => Fin.ext ?_)
    match a with
    | ⟨0, _⟩ => show win1_1.index t (0 : Fin 2) * 1 + 1 * 0 = 0; omega
    | ⟨1, _⟩ => show win1_1.index t (1 : Fin 2) * 512 + 1 * (j 1).val = win1_2.index t (1 : Fin 2) * 512 + 1 * (j 1).val; omega
  rw [ha, hb]

/-- An index of the output is in point t's block iff each coordinate is in the block's range on its axis. -/
theorem mem_blk1 (t : Fin cfg1.N) (i : S50000x512.Idx) :
    i ∈ ((cfg1.win 2).blk t).view.set ↔ ∀ a : Fin 2, win1_2.index t a * S2000x512.size a ≤ (i a).val ∧ (i a).val < win1_2.index t a * S2000x512.size a + S2000x512.size a := by
  show i ∈ ((View.whole main_v52).slice (win1_2.rect t)).set ↔ _
  rw [View.set_slice_whole, Rect.mem_set_unit]
  exact Iff.rfl

/-- The point whose block holds row r is r / 2000. -/
theorem cover1 (i : S50000x512.Idx) : ∃ t : Fin cfg1.N, (cfg1.win 2).flush t = true ∧ i ∈ ((cfg1.win 2).blk t).view.set := by
  have hi0 : (i 0).val < 50000 := (i 0).isLt
  have hi1 : (i 1).val < 512 := (i 1).isLt
  have hN : cfg1.N = 25 := N_1
  let t : Fin cfg1.N := ⟨(i 0).val / 2000, by rw [hN]; omega⟩
  obtain ⟨e0, e1, e2, e3, e4, e5⟩ := idx1 t
  refine ⟨t, flush1_2 t, ?_⟩
  rw [mem_blk1]
  intro a
  have ht : t.val = (i 0).val / 2000 := rfl
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 512 ≤ (i 1).val ∧ (i 1).val < win1_2.index t (1 : Fin 2) * 512 + 512; omega

/-- After the sweep the output array is the biased, clamped input. -/
theorem sweep1 (c : Dev nD) : (dat1 V c).arrAt 2 cfg1.N = biasMax (V c main_v50) (V c main_v51) :=
  (dat1 V c).arrAt_eq_of_cover 2 (biasMax (V c main_v50) (V c main_v51)) (fun t _ => flushed1 V c t) cover1

end Cert.KernelIdeal.Sweep

end
-- ==== Proof.Sweep0.lean ====
/-
  The first layer's matrix-product sweep, as one function of the arrays it finds.

  The sweep has 25 points; point t multiplies rows 2000·t … 2000·t + 1999 of the [50000, 512] input by the whole
  [512, 512] weight matrix and writes the block back to the same rows of the output. The blocks tile the output,
  so after the sweep entry (r, q) of the output is ∑ k, x(r, k) · w(k, q).
-/
import proofs.«108881_j33827162423530_1_alg».proof.Proof.Gen.KernelIdeal.Frame
import proofs.«108881_j33827162423530_1_alg».proof.Proof.Bodies
import proofs.«108881_j33827162423530_1_alg».proof.Proof.SweepDefs
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Sweep

open Cert.KernelIdeal Cert.KernelIdeal.Gen

variable (V : (c : Dev nD) → (b : Ref sig .tc) → Buf (Elt Ideal) ((c : Thread nD τ).loc b))

/-- The block indices of the three windows at point t: the input and the output move down the rows with t, the weight
    matrix stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays the sweep finds. -/
theorem flushed0 (c : Dev nD) (t : Fin cfg0.N) :
    (dat0 V c).flushed 2 t = ((cfg0.win 2).blk t).view.read (Elt Ideal) (rowsTimes (V c main_arg0) (V c main_v32)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x512) hz]
  obtain ⟨e0, e1, e2, e3, e4, e5⟩ := idx0 t
  funext j
  show k0_pay1 (F := Ideal) (iblk0 V c 0 t) (iblk0 V c 1 t) j = rowsTimes (V c main_arg0) (V c main_v32) (((cfg0.win 2).blk t).view.emb j)
  have hj : (j : S2000x512.Idx) = ix2 (j 0) (j 1) := eq_ix2 j
  refine (congrArg (k0_pay1 (F := Ideal) (iblk0 V c 0 t) (iblk0 V c 1 t)) hj).trans ?_
  refine (Body.pay0_apply _ _ (j 0) (j 1)).trans ?_
  unfold rowsTimes
  refine Finset.sum_congr rfl fun k _ => ?_
  have hx : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  have hw : iblk0 V c 1 t (ix2 k (j 1)) = V c main_v32 (ix2 k ((((cfg0.win 2).blk t).view.emb j) 1)) := by
    show V c main_v32 (((cfg0.win 1).blk t).view.emb (ix2 k (j 1))) = _
    refine congrArg (V c main_v32) (funext fun a => Fin.ext ?_)
    match a with
    | ⟨0, _⟩ => show win0_1.index t (0 : Fin 2) * 512 + 1 * k.val = k.val; omega
    | ⟨1, _⟩ => show win0_1.index t (1 : Fin 2) * 512 + 1 * (j 1).val = win0_2.index t (1 : Fin 2) * 512 + 1 * (j 1).val; omega
  rw [hx, hw]

/-- An index of the output is in point t's block iff each coordinate is in the block's range on its axis. -/
theorem mem_blk0 (t : Fin cfg0.N) (i : S50000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v33).slice (win0_2.rect t)).set ↔ _
  rw [View.set_slice_whole, Rect.mem_set_unit]
  exact Iff.rfl

/-- The point whose block holds row r is r / 2000. -/
theorem cover0 (i : S50000x512.Idx) : ∃ t : Fin cfg0.N, (cfg0.win 2).flush t = true ∧ i ∈ ((cfg0.win 2).blk t).view.set := by
  have hi0 : (i 0).val < 50000 := (i 0).isLt
  have hi1 : (i 1).val < 512 := (i 1).isLt
  have hN : cfg0.N = 25 := N_0
  let t : Fin cfg0.N := ⟨(i 0).val / 2000, by rw [hN]; omega⟩
  obtain ⟨e0, e1, e2, e3, e4, e5⟩ := idx0 t
  refine ⟨t, flush0_2 t, ?_⟩
  rw [mem_blk0]
  intro a
  have ht : t.val = (i 0).val / 2000 := rfl
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 512 ≤ (i 1).val ∧ (i 1).val < win0_2.index t (1 : Fin 2) * 512 + 512; omega

/-- After the sweep the output array is the product of the arrays the sweep found. -/
theorem sweep0 (c : Dev nD) : (dat0 V c).arrAt 2 cfg0.N = rowsTimes (V c main_arg0) (V c main_v32) :=
  (dat0 V c).arrAt_eq_of_cover 2 (rowsTimes (V c main_arg0) (V c main_v32)) (fun t _ => flushed0 V c t) cover0

end Cert.KernelIdeal.Sweep

end
-- ==== Proof.Walk1.lean ====
/-
  The kernel program up to the end of its first grid sweep, buffer by buffer, against the reference's stages.

  Before the first sweep the program computes, on the host, the source and destination node of every edge, the degree
  of every node (the number of edges into it plus two), its inverse square root, the per-edge weight (the product of
  the two end nodes' inverse square roots) and the per-node self weight (twice the square of the inverse square root).
  These are the same host operations as the reference's, so each buffer holds the reference's stage of the same name.
  The first sweep then leaves the product of the input by the first weight matrix: the reference's first dot_general.
-/
import proofs.«108881_j33827162423530_1_alg».proof.Proof.Gen.KernelIdeal.Frame
import proofs.«108881_j33827162423530_1_alg».proof.Proof.Sweep0
import proofs.«108881_j33827162423530_1_alg».proof.Proof.RefReadP
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx Idealize.ShloMosaic.StableHlo

namespace Cert.KernelIdeal.Walk

open Cert.KernelIdeal Cert.KernelIdeal.Gen Cert.KernelIdeal.Sweep

variable (m : (ℓ : Loc nD τ sig) → Buf (Elt Ideal) ℓ) (ρ : Dev nD → PrngReg) (c : Dev nD)

/-! ## After the first stretch of host operations: the edges' end nodes, the degrees and their inverse square roots -/

theorem at1_v1 : W1 m ρ c (Proc.devRef .tc main_v1) = Cert.ReferenceIdeal.ReadP.val_main_v1 (F := Ideal) (m ((c : Thread nD τ).loc main_arg1)) := by
  dsimp only [W1, W0, hostOps0]; after_results; rfl

theorem at1_v3 : W1 m ρ c (Proc.devRef .tc main_v3) = Cert.ReferenceIdeal.ReadP.val_main_v3 (F := Ideal) (m ((c : Thread nD τ).loc main_arg1)) := by
  dsimp only [W1, W0, hostOps0]; after_results; rfl

theorem at1_v11 : W1 m ρ c (Proc.devRef .tc main_v11) = Cert.ReferenceIdeal.ReadP.val_main_v12 (F := Ideal) (m ((c : Thread nD τ).loc main_arg1)) := by
  dsimp only [W1, W0, hostOps0]; after_results; rfl

theorem at1_v12 : W1 m ρ c (Proc.devRef .tc main_v12) = Cert.ReferenceIdeal.ReadP.val_main_v13 (F := Ideal) (m ((c : Thread nD τ).loc main_arg1)) := by
  dsimp only [W1, W0, hostOps0]; after_results; rfl

theorem at1_cst3 : W1 m ρ c (Proc.devRef .tc main_cst_3) = Cert.ReferenceIdeal.ReadP.val_main_cst_3 (F := Ideal) := by
  dsimp only [W1, W0, hostOps0]; after_results; rfl

/-! ## After the select that guards the inverse square root -/

set_option maxHeartbeats 4000000 in
theorem at2_v13 : W2 m ρ c (Proc.devRef .tc main_v13) = Cert.ReferenceIdeal.ReadP.val_main_v14 (F := Ideal) (m ((c : Thread nD τ).loc main_arg1)) := by
  have h11 := at1_v11 m ρ c
  have h12 := at1_v12 m ρ c
  have hc3 := at1_cst3 m ρ c
  show after hostOps0_1 (W1 m ρ c) (Proc.devRef .tc main_v13) = _
  generalize W1 m ρ c = U at h11 h12 hc3 ⊢
  dsimp only [hostOps0_1]
  after_results
  rw [h11, h12, hc3]
  unfold Cert.ReferenceIdeal.ReadP.val_main_v14 Cert.ReferenceIdeal.ReadP.val_main_call0_v1 Cert.ReferenceIdeal.ReadP.val_main_call0_v0
  simp only [cast_eq, id]

theorem at2_v1 : W2 m ρ c (Proc.devRef .tc main_v1) = Cert.ReferenceIdeal.ReadP.val_main_v1 (F := Ideal) (m ((c : Thread nD τ).loc main_arg1)) := by
  have h := at1_v1 m ρ c
  show after hostOps0_1 (W1 m ρ c) (Proc.devRef .tc main_v1) = _
  generalize W1 m ρ c = U at h ⊢
  dsimp only [hostOps0_1]
  after_results
  exact h

theorem at2_v3 : W2 m ρ c (Proc.devRef .tc main_v3) = Cert.ReferenceIdeal.ReadP.val_main_v3 (F := Ideal) (m ((c : Thread nD τ).loc main_arg1)) := by
  have h := at1_v3 m ρ c
  show after hostOps0_1 (W1 m ρ c) (Proc.devRef .tc main_v3) = _
  generalize W1 m ρ c = U at h ⊢
  dsimp only [hostOps0_1]
  after_results
  exact h

/-! ## At the first sweep's entry: the per-edge and per-node weights -/

theorem at3_arg0 : W3 m ρ c (Proc.devRef .tc main_arg0) = (m ((c : Thread nD τ).loc main_arg0)) := by
  dsimp only [W3, W2, W1, W0, hostOps0, hostOps0_1, hostOps0_2]; after_results

theorem at3_arg3 : W3 m ρ c (Proc.devRef .tc main_arg3) = (m ((c : Thread nD τ).loc main_arg3)) := by
  dsimp only [W3, W2, W1, W0, hostOps0, hostOps0_1, hostOps0_2]; after_results

theorem at3_arg4 : W3 m ρ c (Proc.devRef .tc main_arg4) = (m ((c : Thread nD τ).loc main_arg4)) := by
  dsimp only [W3, W2, W1, W0, hostOps0, hostOps0_1, hostOps0_2]; after_results

theorem at3_arg5 : W3 m ρ c (Proc.devRef .tc main_arg5) = (m ((c : Thread nD τ).loc main_arg5)) := by
  dsimp only [W3, W2, W1, W0, hostOps0, hostOps0_1, hostOps0_2]; after_results

theorem at3_v32 : W3 m ρ c (Proc.devRef .tc main_v32) = (m ((c : Thread nD τ).loc main_arg2)) := by
  dsimp only [W3, W2, W1, W0, hostOps0, hostOps0_1, hostOps0_2]; after_results; rfl

theorem at3_v1 : W3 m ρ c (Proc.devRef .tc main_v1) = Cert.ReferenceIdeal.ReadP.val_main_v1 (F := Ideal) (m ((c : Thread nD τ).loc main_arg1)) := by
  dsimp only [W3, W2, W1, W0, hostOps0, hostOps0_1, hostOps0_2]; after_results; rfl

theorem at3_v3 : W3 m ρ c (Proc.devRef .tc main_v3) = Cert.ReferenceIdeal.ReadP.val_main_v3 (F := Ideal) (m ((c : Thread nD τ).loc main_arg1)) := by
  dsimp only [W3, W2, W1, W0, hostOps0, hostOps0_1, hostOps0_2]; after_results; rfl

set_option maxHeartbeats 4000000 in
theorem at3_v28 : W3 m ρ c (Proc.devRef .tc main_v28) = Cert.ReferenceIdeal.ReadP.val_main_v29 (F := Ideal) (m ((c : Thread nD τ).loc main_arg1)) := by
  have h13 := at2_v13 m ρ c
  have h1 := at2_v1 m ρ c
  have h3 := at2_v3 m ρ c
  show after hostOps0_2 (W2 m ρ c) (Proc.devRef .tc main_v28) = _
  generalize W2 m ρ c = U at h13 h1 h3 ⊢
  dsimp only [hostOps0_2]
  after_results
  rw [h13, h1, h3]
  unfold Cert.ReferenceIdeal.ReadP.val_main_v29 Cert.ReferenceIdeal.ReadP.val_main_v28 Cert.ReferenceIdeal.ReadP.val_main_v27 Cert.ReferenceIdeal.ReadP.val_main_v26 Cert.ReferenceIdeal.ReadP.val_main_v25 Cert.ReferenceIdeal.ReadP.val_main_v24 Cert.ReferenceIdeal.ReadP.val_main_c_6 Cert.ReferenceIdeal.ReadP.val_main_v23 Cert.ReferenceIdeal.ReadP.val_main_v22 Cert.ReferenceIdeal.ReadP.val_main_c_5 Cert.ReferenceIdeal.ReadP.val_main_v21 Cert.ReferenceIdeal.ReadP.val_main_v20 Cert.ReferenceIdeal.ReadP.val_main_v19 Cert.ReferenceIdeal.ReadP.val_main_v18 Cert.ReferenceIdeal.ReadP.val_main_v17 Cert.ReferenceIdeal.ReadP.val_main_c_4 Cert.ReferenceIdeal.ReadP.val_main_v16 Cert.ReferenceIdeal.ReadP.val_main_v15 Cert.ReferenceIdeal.ReadP.val_main_c
  rfl

set_option maxHeartbeats 4000000 in
theorem at3_v31 : W3 m ρ c (Proc.devRef .tc main_v31) = Cert.ReferenceIdeal.ReadP.val_main_v45 (F := Ideal) (m ((c : Thread nD τ).loc main_arg1)) := by
  have h13 := at2_v13 m ρ c
  show after hostOps0_2 (W2 m ρ c) (Proc.devRef .tc main_v31) = _
  generalize W2 m ρ c = U at h13 ⊢
  dsimp only [hostOps0_2]
  after_results
  rw [h13]
  unfold Cert.ReferenceIdeal.ReadP.val_main_v45 Cert.ReferenceIdeal.ReadP.val_main_v44 Cert.ReferenceIdeal.ReadP.val_main_v43 Cert.ReferenceIdeal.ReadP.val_main_cst_10
  rfl

end Cert.KernelIdeal.Walk

end
-- ==== Proof.Walk2.lean ====
/-
  The kernel program from the end of its first grid sweep to the end of its second, buffer by buffer, against the
  reference's stages.

  The first sweep leaves the product h of the input by the first weight matrix. The host then gathers, for every edge,
  the row of h at the edge's source node, scales it by the edge's weight, adds it into the row of the edge's destination
  node, and adds h scaled row by row by the self weights: the aggregate. These are the reference's host operations on the
  reference's product, which is the same sum. The second sweep adds the bias row and clamps at zero, which is what the
  reference's broadcast bias, addition and maximum with zero compute entry by entry.
-/
import proofs.«108881_j33827162423530_1_alg».proof.Proof.Gen.KernelIdeal.Frame
import proofs.«108881_j33827162423530_1_alg».proof.Proof.Sweep0
import proofs.«108881_j33827162423530_1_alg».proof.Proof.Sweep1
import proofs.«108881_j33827162423530_1_alg».proof.Proof.RefReadP
import proofs.«108881_j33827162423530_1_alg».proof.Proof.Walk1
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx Idealize.ShloMosaic.StableHlo

namespace Cert.KernelIdeal.Walk

open Cert.KernelIdeal Cert.KernelIdeal.Gen Cert.KernelIdeal.Sweep

variable (m : (ℓ : Loc nD τ sig) → Buf (Elt Ideal) ℓ) (ρ : Dev nD → PrngReg) (c : Dev nD)

/-! ## After the first sweep -/

/-- The first sweep's output is the reference's first product. -/
theorem at4_v33 : W4 m ρ c (Proc.devRef .tc main_v33) = Cert.ReferenceIdeal.ReadP.val_main_v4 (F := Ideal) (m ((c : Thread nD τ).loc main_arg0)) (m ((c : Thread nD τ).loc main_arg2)) := by
  refine (W4_arr m ρ c 2).trans ?_
  refine (sweep0 (V3 m ρ) c).trans ?_
  show rowsTimes (W3 m ρ c (Proc.devRef .tc main_arg0)) (W3 m ρ c (Proc.devRef .tc main_v32)) = _
  rw [at3_arg0, at3_v32]
  funext i
  refine Eq.trans ?_ (Cert.ReferenceIdeal.ReadP.val_main_v4_apply (m ((c : Thread nD τ).loc main_arg0)) (m ((c : Thread nD τ).loc main_arg2)) i).symm
  unfold rowsTimes
  refine Finset.sum_congr rfl fun k _ => ?_
  refine congrArg₂ (· * ·) (congrArg _ (funext fun a => ?_)) (congrArg _ (funext fun a => ?_))
  · match a with | ⟨0, _⟩ => rfl | ⟨1, _⟩ => rfl
  · match a with | ⟨0, _⟩ => rfl | ⟨1, _⟩ => rfl

theorem at4_v1 : W4 m ρ c (Proc.devRef .tc main_v1) = Cert.ReferenceIdeal.ReadP.val_main_v1 (F := Ideal) (m ((c : Thread nD τ).loc main_arg1)) :=
  (W4_of_ne m ρ c main_v1 (by decide)).trans (at3_v1 m ρ c)

theorem at4_v3 : W4 m ρ c (Proc.devRef .tc main_v3) = Cert.ReferenceIdeal.ReadP.val_main_v3 (F := Ideal) (m ((c : Thread nD τ).loc main_arg1)) :=
  (W4_of_ne m ρ c main_v3 (by decide)).trans (at3_v3 m ρ c)

theorem at4_v28 : W4 m ρ c (Proc.devRef .tc main_v28) = Cert.ReferenceIdeal.ReadP.val_main_v29 (F := Ideal) (m ((c : Thread nD τ).loc main_arg1)) :=
  (W4_of_ne m ρ c main_v28 (by decide)).trans (at3_v28 m ρ c)

theorem at4_v31 : W4 m ρ c (Proc.devRef .tc main_v31) = Cert.ReferenceIdeal.ReadP.val_main_v45 (F := Ideal) (m ((c : Thread nD τ).loc main_arg1)) :=
  (W4_of_ne m ρ c main_v31 (by decide)).trans (at3_v31 m ρ c)

theorem at4_arg3 : W4 m ρ c (Proc.devRef .tc main_arg3) = (m ((c : Thread nD τ).loc main_arg3)) :=
  (W4_of_ne m ρ c main_arg3 (by decide)).trans (at3_arg3 m ρ c)

theorem at4_arg4 : W4 m ρ c (Proc.devRef .tc main_arg4) = (m ((c : Thread nD τ).loc main_arg4)) :=
  (W4_of_ne m ρ c main_arg4 (by decide)).trans (at3_arg4 m ρ c)

theorem at4_arg5 : W4 m ρ c (Proc.devRef .tc main_arg5) = (m ((c : Thread nD τ).loc main_arg5)) :=
  (W4_of_ne m ρ c main_arg5 (by decide)).trans (at3_arg5 m ρ c)

/-! ## At the second sweep's entry: the aggregate and the bias row -/

set_option maxHeartbeats 8000000 in
/-- The aggregate of the first layer is the reference's. -/
theorem at5_v50 : W5 m ρ c (Proc.devRef .tc main_v50) = Cert.ReferenceIdeal.ReadP.val_main_v49 (F := Ideal) (m ((c : Thread nD τ).loc main_arg0)) (m ((c : Thread nD τ).loc main_arg1)) (m ((c : Thread nD τ).loc main_arg2)) := by
  dsimp only [W5, hostOps1]
  after_results
  rw [at4_v33, at4_v1, at4_v3, at4_v28, at4_v31]
  unfold Cert.ReferenceIdeal.ReadP.val_main_v49 Cert.ReferenceIdeal.ReadP.val_main_v48 Cert.ReferenceIdeal.ReadP.val_main_v47 Cert.ReferenceIdeal.ReadP.val_main_v46 Cert.ReferenceIdeal.ReadP.val_main_v42 Cert.ReferenceIdeal.ReadP.val_main_v41 Cert.ReferenceIdeal.ReadP.val_main_v40 Cert.ReferenceIdeal.ReadP.val_main_cst_9 Cert.ReferenceIdeal.ReadP.val_main_v39 Cert.ReferenceIdeal.ReadP.val_main_v38 Cert.ReferenceIdeal.ReadP.val_main_v37 Cert.ReferenceIdeal.ReadP.val_main_v36 Cert.ReferenceIdeal.ReadP.val_main_v35 Cert.ReferenceIdeal.ReadP.val_main_v34 Cert.ReferenceIdeal.ReadP.val_main_v33 Cert.ReferenceIdeal.ReadP.val_main_v32 Cert.ReferenceIdeal.ReadP.val_main_c_8 Cert.ReferenceIdeal.ReadP.val_main_v31 Cert.ReferenceIdeal.ReadP.val_main_v30 Cert.ReferenceIdeal.ReadP.val_main_c_7
  rfl

/-- The bias row, entry by entry. -/
theorem at5_v51 (q : Fin 512) : W5 m ρ c (Proc.devRef .tc main_v51) (ix2 (0 : Fin 1) q) = (m ((c : Thread nD τ).loc main_arg3)) (ix1 q) := by
  dsimp only [W5, hostOps1]
  after_results
  rw [at4_arg3]
  exact shapeCast_a_1a_apply (m ((c : Thread nD τ).loc main_arg3)) _ 0 q

theorem at5_v1 : W5 m ρ c (Proc.devRef .tc main_v1) = Cert.ReferenceIdeal.ReadP.val_main_v1 (F := Ideal) (m ((c : Thread nD τ).loc main_arg1)) := by
  dsimp only [W5, hostOps1]; after_results; exact at4_v1 m ρ c

theorem at5_v3 : W5 m ρ c (Proc.devRef .tc main_v3) = Cert.ReferenceIdeal.ReadP.val_main_v3 (F := Ideal) (m ((c : Thread nD τ).loc main_arg1)) := by
  dsimp only [W5, hostOps1]; after_results; exact at4_v3 m ρ c

theorem at5_v28 : W5 m ρ c (Proc.devRef .tc main_v28) = Cert.ReferenceIdeal.ReadP.val_main_v29 (F := Ideal) (m ((c : Thread nD τ).loc main_arg1)) := by
  dsimp only [W5, hostOps1]; after_results; exact at4_v28 m ρ c

theorem at5_v31 : W5 m ρ c (Proc.devRef .tc main_v31) = Cert.ReferenceIdeal.ReadP.val_main_v45 (F := Ideal) (m ((c : Thread nD τ).loc main_arg1)) := by
  dsimp only [W5, hostOps1]; after_results; exact at4_v31 m ρ c

theorem at5_arg4 : W5 m ρ c (Proc.devRef .tc main_arg4) = (m ((c : Thread nD τ).loc main_arg4)) := by
  dsimp only [W5, hostOps1]; after_results; exact at4_arg4 m ρ c

theorem at5_arg5 : W5 m ρ c (Proc.devRef .tc main_arg5) = (m ((c : Thread nD τ).loc main_arg5)) := by
  dsimp only [W5, hostOps1]; after_results; exact at4_arg5 m ρ c

end Cert.KernelIdeal.Walk

end
-- ==== Proof.Walk2b.lean ====
/-
  The second grid sweep of the kernel program against the reference's first layer.

  The sweep adds the bias row to every row of the aggregate and clamps at zero. The reference broadcasts the bias vector
  to a row and then down the rows, adds, and takes the maximum with a broadcast zero: entry (r, q) of both is
  max (agg(r, q) + b(q)) 0.
-/
import proofs.«108881_j33827162423530_1_alg».proof.Proof.Gen.KernelIdeal.Frame
import proofs.«108881_j33827162423530_1_alg».proof.Proof.Sweep1
import proofs.«108881_j33827162423530_1_alg».proof.Proof.RefReadP
import proofs.«108881_j33827162423530_1_alg».proof.Proof.Walk2
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx Idealize.ShloMosaic.StableHlo

namespace Cert.KernelIdeal.Walk

open Cert.KernelIdeal Cert.KernelIdeal.Gen Cert.KernelIdeal.Sweep

variable (m : (ℓ : Loc nD τ sig) → Buf (Elt Ideal) ℓ) (ρ : Dev nD → PrngReg) (c : Dev nD)

/-- Reading the biased, clamped array at an entry, once its two operands are known: the array entry for entry, the
    bias row as a vector. -/
theorem biasMax_apply (a a' : S50000x512.Idx → EReal) (b : S1x512.Idx → EReal) (b' : S512.Idx → EReal)
    (ha : a = a') (hb : ∀ q : Fin 512, b (ix2 (0 : Fin 1) q) = b' (ix1 q)) (i : S50000x512.Idx) :
    biasMax a b i = max (a' i + b' (ix1 (i 1))) (Ideal.ofBits .f32 0x00000000#32) := by
  subst ha
  exact congrArg (fun z => max (a i + z) (Ideal.ofBits .f32 0x00000000#32)) (hb (i 1))

/-! ## After the second sweep -/

/-- The second sweep's output is the reference's first layer: bias added, clamped at zero. -/
theorem at6_v52 : W6 m ρ c (Proc.devRef .tc main_v52) = Cert.ReferenceIdeal.ReadP.val_main_v53 (F := Ideal) (m ((c : Thread nD τ).loc main_arg0)) (m ((c : Thread nD τ).loc main_arg1)) (m ((c : Thread nD τ).loc main_arg2)) (m ((c : Thread nD τ).loc main_arg3)) := by
  refine (W6_arr m ρ c 2).trans ?_
  refine (sweep1 (V5 m ρ) c).trans ?_
  funext i
  refine (biasMax_apply _ _ _ _ (at5_v50 m ρ c) (at5_v51 m ρ c) i).trans ?_
  rw [Cert.ReferenceIdeal.ReadP.val_main_v53_apply, Cert.ReferenceIdeal.ReadP.val_main_v52_apply, Cert.ReferenceIdeal.ReadP.val_main_v51_apply, Cert.ReferenceIdeal.ReadP.val_main_v50_apply, Cert.ReferenceIdeal.ReadP.val_main_call1_v0_apply, Cert.ReferenceIdeal.ReadP.val_main_call1_cst_apply]
  simp only [Ideal.maximumf_def, Ideal.addf_def]
  refine congrArg₂ max (congrArg₂ (· + ·) rfl (congrArg _ (funext fun a => ?_))) rfl
  match a with | ⟨0, _⟩ => rfl

theorem at6_v1 : W6 m ρ c (Proc.devRef .tc main_v1) = Cert.ReferenceIdeal.ReadP.val_main_v1 (F := Ideal) (m ((c : Thread nD τ).loc main_arg1)) :=
  (W6_of_ne m ρ c main_v1 (by decide)).trans (at5_v1 m ρ c)

theorem at6_v3 : W6 m ρ c (Proc.devRef .tc main_v3) = Cert.ReferenceIdeal.ReadP.val_main_v3 (F := Ideal) (m ((c : Thread nD τ).loc main_arg1)) :=
  (W6_of_ne m ρ c main_v3 (by decide)).trans (at5_v3 m ρ c)

theorem at6_v28 : W6 m ρ c (Proc.devRef .tc main_v28) = Cert.ReferenceIdeal.ReadP.val_main_v29 (F := Ideal) (m ((c : Thread nD τ).loc main_arg1)) :=
  (W6_of_ne m ρ c main_v28 (by decide)).trans (at5_v28 m ρ c)

theorem at6_v31 : W6 m ρ c (Proc.devRef .tc main_v31) = Cert.ReferenceIdeal.ReadP.val_main_v45 (F := Ideal) (m ((c : Thread nD τ).loc main_arg1)) :=
  (W6_of_ne m ρ c main_v31 (by decide)).trans (at5_v31 m ρ c)

theorem at6_arg4 : W6 m ρ c (Proc.devRef .tc main_arg4) = (m ((c : Thread nD τ).loc main_arg4)) :=
  (W6_of_ne m ρ c main_arg4 (by decide)).trans (at5_arg4 m ρ c)

theorem at6_arg5 : W6 m ρ c (Proc.devRef .tc main_arg5) = (m ((c : Thread nD τ).loc main_arg5)) :=
  (W6_of_ne m ρ c main_arg5 (by decide)).trans (at5_arg5 m ρ c)

end Cert.KernelIdeal.Walk

end
-- ==== Proof.Walk3.lean ====
/-
  The kernel program from the end of its second grid sweep to its return, buffer by buffer, against the reference's
  stages.

  The second layer repeats the first on the first layer's output: the third sweep is the product by the second weight
  matrix, the host aggregates it over the edges with the same per-edge and per-node weights, and the fourth sweep adds
  the second bias row and clamps at zero. The reference computes the degrees and the weights a second time, by the same
  operations on the same edge list, so its second copies are equal to its first; with that its stages are again the
  kernel program's buffers, and its result is the kernel program's.
-/
import proofs.«108881_j33827162423530_1_alg».proof.Proof.Gen.KernelIdeal.Frame
import proofs.«108881_j33827162423530_1_alg».proof.Proof.Sweep2
import proofs.«108881_j33827162423530_1_alg».proof.Proof.Sweep3
import proofs.«108881_j33827162423530_1_alg».proof.Proof.RefReadP
import proofs.«108881_j33827162423530_1_alg».proof.Proof.Walk2b
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx Idealize.ShloMosaic.StableHlo

namespace Cert.KernelIdeal.Walk

open Cert.KernelIdeal Cert.KernelIdeal.Gen Cert.KernelIdeal.Sweep

variable (m : (ℓ : Loc nD τ sig) → Buf (Elt Ideal) ℓ) (ρ : Dev nD → PrngReg) (c : Dev nD)

/-! ## At the third sweep's entry -/

theorem at7_v53 : W7 m ρ c (Proc.devRef .tc main_v53) = (m ((c : Thread nD τ).loc main_arg4)) := by
  dsimp only [W7, hostOps2]; after_results; rw [at6_arg4]; rfl

theorem at7_v52 : W7 m ρ c (Proc.devRef .tc main_v52) = Cert.ReferenceIdeal.ReadP.val_main_v53 (F := Ideal) (m ((c : Thread nD τ).loc main_arg0)) (m ((c : Thread nD τ).loc main_arg1)) (m ((c : Thread nD τ).loc main_arg2)) (m ((c : Thread nD τ).loc main_arg3)) := by
  dsimp only [W7, hostOps2]; after_results; exact at6_v52 m ρ c

theorem at7_v1 : W7 m ρ c (Proc.devRef .tc main_v1) = Cert.ReferenceIdeal.ReadP.val_main_v1 (F := Ideal) (m ((c : Thread nD τ).loc main_arg1)) := by
  dsimp only [W7, hostOps2]; after_results; exact at6_v1 m ρ c

theorem at7_v3 : W7 m ρ c (Proc.devRef .tc main_v3) = Cert.ReferenceIdeal.ReadP.val_main_v3 (F := Ideal) (m ((c : Thread nD τ).loc main_arg1)) := by
  dsimp only [W7, hostOps2]; after_results; exact at6_v3 m ρ c

theorem at7_v28 : W7 m ρ c (Proc.devRef .tc main_v28) = Cert.ReferenceIdeal.ReadP.val_main_v29 (F := Ideal) (m ((c : Thread nD τ).loc main_arg1)) := by
  dsimp only [W7, hostOps2]; after_results; exact at6_v28 m ρ c

theorem at7_v31 : W7 m ρ c (Proc.devRef .tc main_v31) = Cert.ReferenceIdeal.ReadP.val_main_v45 (F := Ideal) (m ((c : Thread nD τ).loc main_arg1)) := by
  dsimp only [W7, hostOps2]; after_results; exact at6_v31 m ρ c

theorem at7_arg5 : W7 m ρ c (Proc.devRef .tc main_arg5) = (m ((c : Thread nD τ).loc main_arg5)) := by
  dsimp only [W7, hostOps2]; after_results; exact at6_arg5 m ρ c

/-! ## After the third sweep -/

/-- The third sweep's output is the reference's second product. -/
theorem at8_v54 : W8 m ρ c (Proc.devRef .tc main_v54) = Cert.ReferenceIdeal.ReadP.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W8_arr m ρ c 2).trans ?_
  refine (sweep2 (V7 m ρ) c).trans ?_
  show rowsTimes (W7 m ρ c (Proc.devRef .tc main_v52)) (W7 m ρ c (Proc.devRef .tc main_v53)) = _
  rw [at7_v52, at7_v53]
  funext i
  refine Eq.trans ?_ (Cert.ReferenceIdeal.ReadP.val_main_v54_apply (m ((c : Thread nD τ).loc main_arg0)) (m ((c : Thread nD τ).loc main_arg1)) (m ((c : Thread nD τ).loc main_arg2)) (m ((c : Thread nD τ).loc main_arg3)) (m ((c : Thread nD τ).loc main_arg4)) i).symm
  unfold rowsTimes
  refine Finset.sum_congr rfl fun k _ => ?_
  refine congrArg₂ (· * ·) (congrArg _ (funext fun a => ?_)) (congrArg _ (funext fun a => ?_))
  · match a with | ⟨0, _⟩ => rfl | ⟨1, _⟩ => rfl
  · match a with | ⟨0, _⟩ => rfl | ⟨1, _⟩ => rfl

theorem at8_v1 : W8 m ρ c (Proc.devRef .tc main_v1) = Cert.ReferenceIdeal.ReadP.val_main_v1 (F := Ideal) (m ((c : Thread nD τ).loc main_arg1)) :=
  (W8_of_ne m ρ c main_v1 (by decide)).trans (at7_v1 m ρ c)

theorem at8_v3 : W8 m ρ c (Proc.devRef .tc main_v3) = Cert.ReferenceIdeal.ReadP.val_main_v3 (F := Ideal) (m ((c : Thread nD τ).loc main_arg1)) :=
  (W8_of_ne m ρ c main_v3 (by decide)).trans (at7_v3 m ρ c)

theorem at8_v28 : W8 m ρ c (Proc.devRef .tc main_v28) = Cert.ReferenceIdeal.ReadP.val_main_v29 (F := Ideal) (m ((c : Thread nD τ).loc main_arg1)) :=
  (W8_of_ne m ρ c main_v28 (by decide)).trans (at7_v28 m ρ c)

theorem at8_v31 : W8 m ρ c (Proc.devRef .tc main_v31) = Cert.ReferenceIdeal.ReadP.val_main_v45 (F := Ideal) (m ((c : Thread nD τ).loc main_arg1)) :=
  (W8_of_ne m ρ c main_v31 (by decide)).trans (at7_v31 m ρ c)

theorem at8_arg5 : W8 m ρ c (Proc.devRef .tc main_arg5) = (m ((c : Thread nD τ).loc main_arg5)) :=
  (W8_of_ne m ρ c main_arg5 (by decide)).trans (at7_arg5 m ρ c)

/-! ## The reference's second copies of the weights are its first -/

set_option maxHeartbeats 8000000 in
/-- The per-edge weights, computed again by the same operations on the same edge list. -/
theorem ref_edge_weights (x1 : (⟨Cert.ReferenceIdeal.S2x400000, .i32⟩ : BufTy).Contents (Elt Ideal)) :
    Cert.ReferenceIdeal.ReadP.val_main_v79 (F := Ideal) x1 = Cert.ReferenceIdeal.ReadP.val_main_v29 (F := Ideal) x1 := by
  unfold Cert.ReferenceIdeal.ReadP.val_main_v79 Cert.ReferenceIdeal.ReadP.val_main_v78 Cert.ReferenceIdeal.ReadP.val_main_v77 Cert.ReferenceIdeal.ReadP.val_main_v76 Cert.ReferenceIdeal.ReadP.val_main_v75 Cert.ReferenceIdeal.ReadP.val_main_v74 Cert.ReferenceIdeal.ReadP.val_main_c_19 Cert.ReferenceIdeal.ReadP.val_main_v73 Cert.ReferenceIdeal.ReadP.val_main_v72 Cert.ReferenceIdeal.ReadP.val_main_c_18 Cert.ReferenceIdeal.ReadP.val_main_v71 Cert.ReferenceIdeal.ReadP.val_main_v70 Cert.ReferenceIdeal.ReadP.val_main_v69 Cert.ReferenceIdeal.ReadP.val_main_v68 Cert.ReferenceIdeal.ReadP.val_main_v67 Cert.ReferenceIdeal.ReadP.val_main_c_17 Cert.ReferenceIdeal.ReadP.val_main_v66 Cert.ReferenceIdeal.ReadP.val_main_v65 Cert.ReferenceIdeal.ReadP.val_main_c_16 Cert.ReferenceIdeal.ReadP.val_main_v64 Cert.ReferenceIdeal.ReadP.val_main_call2_v1 Cert.ReferenceIdeal.ReadP.val_main_call2_v0 Cert.ReferenceIdeal.ReadP.val_main_cst_15 Cert.ReferenceIdeal.ReadP.val_main_v63 Cert.ReferenceIdeal.ReadP.val_main_v62 Cert.ReferenceIdeal.ReadP.val_main_v61 Cert.ReferenceIdeal.ReadP.val_main_cst_14 Cert.ReferenceIdeal.ReadP.val_main_v60 Cert.ReferenceIdeal.ReadP.val_main_v59 Cert.ReferenceIdeal.ReadP.val_main_cst_13 Cert.ReferenceIdeal.ReadP.val_main_v58 Cert.ReferenceIdeal.ReadP.val_main_v57 Cert.ReferenceIdeal.ReadP.val_main_v56 Cert.ReferenceIdeal.ReadP.val_main_cst_12 Cert.ReferenceIdeal.ReadP.val_main_v55 Cert.ReferenceIdeal.ReadP.val_main_cst_11
  unfold Cert.ReferenceIdeal.ReadP.val_main_v29 Cert.ReferenceIdeal.ReadP.val_main_v28 Cert.ReferenceIdeal.ReadP.val_main_v27 Cert.ReferenceIdeal.ReadP.val_main_v26 Cert.ReferenceIdeal.ReadP.val_main_v25 Cert.ReferenceIdeal.ReadP.val_main_v24 Cert.ReferenceIdeal.ReadP.val_main_c_6 Cert.ReferenceIdeal.ReadP.val_main_v23 Cert.ReferenceIdeal.ReadP.val_main_v22 Cert.ReferenceIdeal.ReadP.val_main_c_5 Cert.ReferenceIdeal.ReadP.val_main_v21 Cert.ReferenceIdeal.ReadP.val_main_v20 Cert.ReferenceIdeal.ReadP.val_main_v19 Cert.ReferenceIdeal.ReadP.val_main_v18 Cert.ReferenceIdeal.ReadP.val_main_v17 Cert.ReferenceIdeal.ReadP.val_main_c_4 Cert.ReferenceIdeal.ReadP.val_main_v16 Cert.ReferenceIdeal.ReadP.val_main_v15 Cert.ReferenceIdeal.ReadP.val_main_c Cert.ReferenceIdeal.ReadP.val_main_v14 Cert.ReferenceIdeal.ReadP.val_main_call0_v1 Cert.ReferenceIdeal.ReadP.val_main_call0_v0 Cert.ReferenceIdeal.ReadP.val_main_cst_3 Cert.ReferenceIdeal.ReadP.val_main_v13 Cert.ReferenceIdeal.ReadP.val_main_v12 Cert.ReferenceIdeal.ReadP.val_main_v11 Cert.ReferenceIdeal.ReadP.val_main_cst_2 Cert.ReferenceIdeal.ReadP.val_main_v10 Cert.ReferenceIdeal.ReadP.val_main_v9 Cert.ReferenceIdeal.ReadP.val_main_cst_1 Cert.ReferenceIdeal.ReadP.val_main_v8 Cert.ReferenceIdeal.ReadP.val_main_v7 Cert.ReferenceIdeal.ReadP.val_main_v6 Cert.ReferenceIdeal.ReadP.val_main_cst_0 Cert.ReferenceIdeal.ReadP.val_main_v5 Cert.ReferenceIdeal.ReadP.val_main_cst
  rfl

set_option maxHeartbeats 8000000 in
/-- The per-node self weights, computed again by the same operations on the same edge list. -/
theorem ref_self_weights (x1 : (⟨Cert.ReferenceIdeal.S2x400000, .i32⟩ : BufTy).Contents (Elt Ideal)) :
    Cert.ReferenceIdeal.ReadP.val_main_v95 (F := Ideal) x1 = Cert.ReferenceIdeal.ReadP.val_main_v45 (F := Ideal) x1 := by
  unfold Cert.ReferenceIdeal.ReadP.val_main_v95 Cert.ReferenceIdeal.ReadP.val_main_v94 Cert.ReferenceIdeal.ReadP.val_main_v93 Cert.ReferenceIdeal.ReadP.val_main_cst_23 Cert.ReferenceIdeal.ReadP.val_main_v64 Cert.ReferenceIdeal.ReadP.val_main_call2_v1 Cert.ReferenceIdeal.ReadP.val_main_call2_v0 Cert.ReferenceIdeal.ReadP.val_main_cst_15 Cert.ReferenceIdeal.ReadP.val_main_v63 Cert.ReferenceIdeal.ReadP.val_main_v62 Cert.ReferenceIdeal.ReadP.val_main_v61 Cert.ReferenceIdeal.ReadP.val_main_cst_14 Cert.ReferenceIdeal.ReadP.val_main_v60 Cert.ReferenceIdeal.ReadP.val_main_v59 Cert.ReferenceIdeal.ReadP.val_main_cst_13 Cert.ReferenceIdeal.ReadP.val_main_v58 Cert.ReferenceIdeal.ReadP.val_main_v57 Cert.ReferenceIdeal.ReadP.val_main_v56 Cert.ReferenceIdeal.ReadP.val_main_cst_12 Cert.ReferenceIdeal.ReadP.val_main_v55 Cert.ReferenceIdeal.ReadP.val_main_cst_11
  unfold Cert.ReferenceIdeal.ReadP.val_main_v45 Cert.ReferenceIdeal.ReadP.val_main_v44 Cert.ReferenceIdeal.ReadP.val_main_v43 Cert.ReferenceIdeal.ReadP.val_main_cst_10 Cert.ReferenceIdeal.ReadP.val_main_v14 Cert.ReferenceIdeal.ReadP.val_main_call0_v1 Cert.ReferenceIdeal.ReadP.val_main_call0_v0 Cert.ReferenceIdeal.ReadP.val_main_cst_3 Cert.ReferenceIdeal.ReadP.val_main_v13 Cert.ReferenceIdeal.ReadP.val_main_v12 Cert.ReferenceIdeal.ReadP.val_main_v11 Cert.ReferenceIdeal.ReadP.val_main_cst_2 Cert.ReferenceIdeal.ReadP.val_main_v10 Cert.ReferenceIdeal.ReadP.val_main_v9 Cert.ReferenceIdeal.ReadP.val_main_cst_1 Cert.ReferenceIdeal.ReadP.val_main_v8 Cert.ReferenceIdeal.ReadP.val_main_v7 Cert.ReferenceIdeal.ReadP.val_main_v6 Cert.ReferenceIdeal.ReadP.val_main_cst_0 Cert.ReferenceIdeal.ReadP.val_main_v5 Cert.ReferenceIdeal.ReadP.val_main_cst
  rfl

/-! ## At the fourth sweep's entry: the second aggregate and the second bias row -/

set_option maxHeartbeats 8000000 in
/-- The aggregate of the second layer is the reference's. -/
theorem at9_v71 : W9 m ρ c (Proc.devRef .tc main_v71) = Cert.ReferenceIdeal.ReadP.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [W9, hostOps3]
  after_results
  rw [at8_v54, at8_v1, at8_v3, at8_v28, at8_v31]
  unfold Cert.ReferenceIdeal.ReadP.val_main_v99 Cert.ReferenceIdeal.ReadP.val_main_v98 Cert.ReferenceIdeal.ReadP.val_main_v97 Cert.ReferenceIdeal.ReadP.val_main_v96 Cert.ReferenceIdeal.ReadP.val_main_v92 Cert.ReferenceIdeal.ReadP.val_main_v91 Cert.ReferenceIdeal.ReadP.val_main_v90 Cert.ReferenceIdeal.ReadP.val_main_cst_22 Cert.ReferenceIdeal.ReadP.val_main_v89 Cert.ReferenceIdeal.ReadP.val_main_v88 Cert.ReferenceIdeal.ReadP.val_main_v87 Cert.ReferenceIdeal.ReadP.val_main_v86 Cert.ReferenceIdeal.ReadP.val_main_v85 Cert.ReferenceIdeal.ReadP.val_main_v84 Cert.ReferenceIdeal.ReadP.val_main_v83 Cert.ReferenceIdeal.ReadP.val_main_v82 Cert.ReferenceIdeal.ReadP.val_main_c_21 Cert.ReferenceIdeal.ReadP.val_main_v81 Cert.ReferenceIdeal.ReadP.val_main_v80 Cert.ReferenceIdeal.ReadP.val_main_c_20
  rw [ref_edge_weights, ref_self_weights]
  rfl

/-- The second bias row, entry by entry. -/
theorem at9_v72 (q : Fin 512) : W9 m ρ c (Proc.devRef .tc main_v72) (ix2 (0 : Fin 1) q) = (m ((c : Thread nD τ).loc main_arg5)) (ix1 q) := by
  dsimp only [W9, hostOps3]
  after_results
  rw [at8_arg5]
  exact shapeCast_a_1a_apply (m ((c : Thread nD τ).loc main_arg5)) _ 0 q

end Cert.KernelIdeal.Walk

end
-- ==== Proof.Result.lean ====
/-
  The fourth grid sweep of the kernel program against the reference's result.

  The sweep adds the second bias row to every row of the second aggregate and clamps at zero; the reference broadcasts
  the bias vector, adds, and takes the maximum with a broadcast zero. Entry (r, q) of both is max (agg(r, q) + b(q)) 0,
  so the kernel program's result array is the reference's last stage of the six arguments.
-/
import proofs.«108881_j33827162423530_1_alg».proof.Proof.Gen.KernelIdeal.Frame
import proofs.«108881_j33827162423530_1_alg».proof.Proof.Sweep3
import proofs.«108881_j33827162423530_1_alg».proof.Proof.RefReadP
import proofs.«108881_j33827162423530_1_alg».proof.Proof.Walk3
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx Idealize.ShloMosaic.StableHlo

namespace Cert.KernelIdeal.Walk

open Cert.KernelIdeal Cert.KernelIdeal.Gen Cert.KernelIdeal.Sweep

variable (m : (ℓ : Loc nD τ sig) → Buf (Elt Ideal) ℓ) (ρ : Dev nD → PrngReg) (c : Dev nD)

/-- The kernel program's result is the reference's. -/
theorem result_eq : W10 m ρ c (Proc.devRef .tc main_v73) = Cert.ReferenceIdeal.ReadP.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W10_arr m ρ c 2).trans ?_
  refine (sweep3 (V9 m ρ) c).trans ?_
  funext i
  refine (biasMax_apply _ _ _ _ (at9_v71 m ρ c) (at9_v72 m ρ c) i).trans ?_
  rw [Cert.ReferenceIdeal.ReadP.val_main_v103_apply, Cert.ReferenceIdeal.ReadP.val_main_v102_apply, Cert.ReferenceIdeal.ReadP.val_main_v101_apply, Cert.ReferenceIdeal.ReadP.val_main_v100_apply, Cert.ReferenceIdeal.ReadP.val_main_call3_v0_apply, Cert.ReferenceIdeal.ReadP.val_main_call3_cst_apply]
  simp only [Ideal.maximumf_def, Ideal.addf_def]
  refine congrArg₂ max (congrArg₂ (· + ·) rfl (congrArg _ (funext fun a => ?_))) rfl
  match a with | ⟨0, _⟩ => rfl

end Cert.KernelIdeal.Walk

end
-- ==== Proof.lean ====
/-
  A two-layer graph convolution (self-loop weight two), computed by four grid sweeps among host operations, against
  its plain reference, at the ideal values.

  One layer maps node features x to  max (A (x · W) + b, 0),  where A aggregates over the edges: row d of A h is the sum
  over the edges (s → d) of h's row s scaled by the edge's weight dinv(s) · dinv(d), plus h's row d scaled by
  2 · dinv(d)², with dinv the inverse square root of the in-degree plus two. The kernel program computes x · W in a
  sweep over blocks of 2000 rows (the operands rounded to bf16, which is the identity on extended reals), the aggregate
  on the host, and the bias and the clamp in a second sweep; the reference computes the product with one dot_general and
  everything else on the host. Both use the same host operations for the degrees, the weights, the gathers and the
  scatter-adds, so the two results agree as soon as each sweep's output is the reference's stage of the same name:
  the product is the same sum over the contracted coordinate, and the bias sweep is the reference's broadcast, addition
  and maximum entry by entry. No law of the extended reals beyond that is used, so the finiteness of the inputs is not
  needed. The frames are the generated ones; the idealization rewrote nothing.
-/
import proofs.«108881_j33827162423530_1_alg».proof.Defs
import proofs.«108881_j33827162423530_1_alg».proof.Proof.Gen.Kernel
import proofs.«108881_j33827162423530_1_alg».proof.Proof.Gen.Kernel.Skeleton
import proofs.«108881_j33827162423530_1_alg».proof.Proof.Gen.Kernel.Launch
import proofs.«108881_j33827162423530_1_alg».proof.Proof.Gen.Kernel.Points
import proofs.«108881_j33827162423530_1_alg».proof.Proof.Gen.Kernel.Frame
import proofs.«108881_j33827162423530_1_alg».proof.Proof.Gen.KernelIdeal
import proofs.«108881_j33827162423530_1_alg».proof.Proof.Gen.KernelIdeal.Skeleton
import proofs.«108881_j33827162423530_1_alg».proof.Proof.Gen.KernelIdeal.Launch
import proofs.«108881_j33827162423530_1_alg».proof.Proof.Gen.KernelIdeal.Points
import proofs.«108881_j33827162423530_1_alg».proof.Proof.Gen.KernelIdeal.Frame
import proofs.«108881_j33827162423530_1_alg».proof.Proof.Gen.ReferenceIdeal
import proofs.«108881_j33827162423530_1_alg».proof.Proof.Gen.Pre_finite_inputs
import proofs.«108881_j33827162423530_1_alg».proof.Proof.RefRunP
import proofs.«108881_j33827162423530_1_alg».proof.Proof.RefReadP
import proofs.«108881_j33827162423530_1_alg».proof.Proof.NamedRun
import proofs.«108881_j33827162423530_1_alg».proof.Proof.Result
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_k : Cert.frame_Kernel := fun m ρ _ => Cert.Kernel.Gen.frame m ρ

/-- So does the idealized program. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the six arguments both programs end with the same result array: the reference's last
    stage of the arguments. -/
theorem algebraic : Cert.algebraic_KernelIdeal_ReferenceIdeal := by
  intro m ρ m' ρ' _ hagree
  refine ⟨fun c => Cert.ReferenceIdeal.ReadP.val_main_v103 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Walk.result_eq m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v103_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
